-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x1, .f32⟩
  | .hbm, ⟨5, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v48 : BitVec 1 := Scalar.cmpi .eq arg0 c63_i32
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S_, .f32⟩
  | .hbm, ⟨3, _⟩ => ⟨S33554432, .f32⟩
  | .hbm, ⟨4, _⟩ => ⟨S33554432, .i1⟩
  | .hbm, ⟨5, _⟩ => ⟨S_, .f32⟩
  | .hbm, ⟨6, _⟩ => ⟨S33554432, .f32⟩
  | .hbm, ⟨7, _⟩ => ⟨S33554432, .i1⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S_, .f32⟩
  | .hbm, ⟨14, _⟩ => ⟨S_, .f32⟩
  | .hbm, ⟨15, _⟩ => ⟨S33554432, .f32⟩
  | .hbm, ⟨16, _⟩ => ⟨S33554432, .f32⟩
  | .hbm, ⟨17, _⟩ => ⟨S_, .f32⟩
  | .hbm, ⟨18, _⟩ => ⟨S_, .f32⟩
  | .hbm, ⟨19, _⟩ => ⟨S33554432, .f32⟩
  | .hbm, ⟨20, _⟩ => ⟨S33554432, .f32⟩
  | .hbm, ⟨21, _⟩ => ⟨S_, .f32⟩
  | .hbm, ⟨22, _⟩ => ⟨S_, .f32⟩
  | .hbm, ⟨23, _⟩ => ⟨S33554432, .i32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel
  natLt_1_32 : 1 < 32

variable [Facts₀]

class Facts : Prop extends Facts₀ where

variable [Facts]
-- ==== Proof.Found.lean ====
import proofs.«126685_j20272245637747_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What one grid step leaves in the three carried accumulators and in the output block, as pure functions of the two
  input tiles and of the accumulators' previous contents.

  Each accumulator is a [1,1] buffer stored whole, so what a step leaves in it is the payload of its last store:
  the previous contents plus the tile's partial sum. At the first grid step the accumulator is first set to zero
  and read back, so "previous contents" is the zero block there. At the last grid step the output block receives
  (a · b − n) · ½ of the three accumulators as that same step has just updated them.
-/

namespace Cert.KernelIdeal.Found

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a1 : Memref sig .tc .vmem S4096x128 .f32) (h1 : a1.IsWhole) (a2 : Memref sig .tc .vmem S4096x128 .f32) (h2 : a2.IsWhole)
  (a3 : Memref sig .tc .vmem S1x1 .f32) (h3 : a3.IsWhole) (a4 : Memref sig .tc .vmem S1x1 .f32) (h4 : a4.IsWhole)
  (a5 : Memref sig .tc .vmem S1x1 .f32) (h5 : a5.IsWhole) (a6 : Memref sig .tc .vmem S1x1 .f32) (h6 : a6.IsWhole)

/-- The first accumulator after a step: its previous contents `s` plus the tile's sum of exp(pred) over the
    entries whose label is below ½. -/
def stepNeg (X Y : Vec F S4096x128 .f32) (s : Vec F S1x1 .f32) : Vec F S1x1 .f32 := k0_pay1 (k0_pay13 X Y s)
/-- The second accumulator after a step: `s` plus the tile's sum of exp(−pred) over the entries whose label is above ½. -/
def stepPos (X Y : Vec F S4096x128 .f32) (s : Vec F S1x1 .f32) : Vec F S1x1 .f32 := k0_pay2 (k0_pay11 X Y) s
/-- The third accumulator after a step: `s` plus the number of the tile's entries whose label is below ½. -/
def stepCnt (Y : Vec F S4096x128 .f32) (s : Vec F S1x1 .f32) : Vec F S1x1 .f32 := k0_pay3 (k0_pay12 Y) s
/-- The output block: (a · b − n) · ½ of the three accumulators. -/
def combine (a b n : Vec F S1x1 .f32) : Vec F S1x1 .f32 := k0_pay4 a b n

/-- First grid step, first accumulator: zeroed, then the tile's partial sum added. -/
theorem first_0 (hc0 : cond0_0 i) (hc1 : ¬cond0_1 i) (X Y : Vec F S4096x128 .f32) :
    sout0_A_0 c i a1 h1 a2 h2 a3 h3 a4 h4 a5 h5 a6 h6 hc0 hc1 X Y = stepNeg X Y k0_pay5 := by
  unfold sout0_A_0
  rw [View.read_writes_eq_canon _ _ _ (scover0_A_0 c i a1 h1 a2 h2 a3 h3 a4 h4 a5 h5 a6 h6 hc0 hc1 X Y)]
  unfold kernelRun0_A
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- First grid step, second accumulator. -/
theorem first_1 (hc0 : cond0_0 i) (hc1 : ¬cond0_1 i) (X Y : Vec F S4096x128 .f32) :
    sout0_A_1 c i a1 h1 a2 h2 a3 h3 a4 h4 a5 h5 a6 h6 hc0 hc1 X Y = stepPos X Y k0_pay6 := by
  unfold sout0_A_1
  rw [View.read_writes_eq_canon _ _ _ (scover0_A_1 c i a1 h1 a2 h2 a3 h3 a4 h4 a5 h5 a6 h6 hc0 hc1 X Y)]
  unfold kernelRun0_A
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- First grid step, third accumulator. -/
theorem first_2 (hc0 : cond0_0 i) (hc1 : ¬cond0_1 i) (X Y : Vec F S4096x128 .f32) :
    sout0_A_2 c i a1 h1 a2 h2 a3 h3 a4 h4 a5 h5 a6 h6 hc0 hc1 X Y = stepCnt Y k0_pay7 := by
  unfold sout0_A_2
  rw [View.read_writes_eq_canon _ _ _ (scover0_A_2 c i a1 h1 a2 h2 a3 h3 a4 h4 a5 h5 a6 h6 hc0 hc1 X Y)]
  unfold kernelRun0_A
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- A middle grid step, first accumulator: the previous contents plus the tile's partial sum. -/
theorem mid_0 (hc0 : ¬cond0_0 i) (hc1 : ¬cond0_1 i) (X Y : Vec F S4096x128 .f32) (s0 s1 s2 : Vec F S1x1 .f32) :
    sout0_B_0 c i a1 h1 a2 h2 a3 h3 a4 h4 a5 h5 a6 h6 hc0 hc1 X Y s0 s1 s2 = stepNeg X Y s0 := by
  unfold sout0_B_0
  rw [View.read_writes_eq_canon _ _ _ (scover0_B_0 c i a1 h1 a2 h2 a3 h3 a4 h4 a5 h5 a6 h6 hc0 hc1 X Y s0 s1 s2)]
  unfold kernelRun0_B
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- A middle grid step, second accumulator. -/
theorem mid_1 (hc0 : ¬cond0_0 i) (hc1 : ¬cond0_1 i) (X Y : Vec F S4096x128 .f32) (s0 s1 s2 : Vec F S1x1 .f32) :
    sout0_B_1 c i a1 h1 a2 h2 a3 h3 a4 h4 a5 h5 a6 h6 hc0 hc1 X Y s0 s1 s2 = stepPos X Y s1 := by
  unfold sout0_B_1
  rw [View.read_writes_eq_canon _ _ _ (scover0_B_1 c i a1 h1 a2 h2 a3 h3 a4 h4 a5 h5 a6 h6 hc0 hc1 X Y s0 s1 s2)]
  unfold kernelRun0_B
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- A middle grid step, third accumulator. -/
theorem mid_2 (hc0 : ¬cond0_0 i) (hc1 : ¬cond0_1 i) (X Y : Vec F S4096x128 .f32) (s0 s1 s2 : Vec F S1x1 .f32) :
    sout0_B_2 c i a1 h1 a2 h2 a3 h3 a4 h4 a5 h5 a6 h6 hc0 hc1 X Y s0 s1 s2 = stepCnt Y s2 := by
  unfold sout0_B_2
  rw [View.read_writes_eq_canon _ _ _ (scover0_B_2 c i a1 h1 a2 h2 a3 h3 a4 h4 a5 h5 a6 h6 hc0 hc1 X Y s0 s1 s2)]
  unfold kernelRun0_B
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- The last grid step, first accumulator. -/
theorem last_0 (hc0 : ¬cond0_0 i) (hc1 : cond0_1 i) (X Y : Vec F S4096x128 .f32) (s0 s1 s2 : Vec F S1x1 .f32) :
    sout0_C_0 c i a1 h1 a2 h2 a3 h3 a4 h4 a5 h5 a6 h6 hc0 hc1 X Y s0 s1 s2 = stepNeg X Y s0 := by
  unfold sout0_C_0
  rw [View.read_writes_eq_canon _ _ _ (scover0_C_0 c i a1 h1 a2 h2 a3 h3 a4 h4 a5 h5 a6 h6 hc0 hc1 X Y s0 s1 s2)]
  unfold kernelRun0_C
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- The last grid step, second accumulator. -/
theorem last_1 (hc0 : ¬cond0_0 i) (hc1 : cond0_1 i) (X Y : Vec F S4096x128 .f32) (s0 s1 s2 : Vec F S1x1 .f32) :
    sout0_C_1 c i a1 h1 a2 h2 a3 h3 a4 h4 a5 h5 a6 h6 hc0 hc1 X Y s0 s1 s2 = stepPos X Y s1 := by
  unfold sout0_C_1
  rw [View.read_writes_eq_canon _ _ _ (scover0_C_1 c i a1 h1 a2 h2 a3 h3 a4 h4 a5 h5 a6 h6 hc0 hc1 X Y s0 s1 s2)]
  unfold kernelRun0_C
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- The last grid step, third accumulator. -/
theorem last_2 (hc0 : ¬cond0_0 i) (hc1 : cond0_1 i) (X Y : Vec F S4096x128 .f32) (s0 s1 s2 : Vec F S1x1 .f32) :
    sout0_C_2 c i a1 h1 a2 h2 a3 h3 a4 h4 a5 h5 a6 h6 hc0 hc1 X Y s0 s1 s2 = stepCnt Y s2 := by
  unfold sout0_C_2
  rw [View.read_writes_eq_canon _ _ _ (scover0_C_2 c i a1 h1 a2 h2 a3 h3 a4 h4 a5 h5 a6 h6 hc0 hc1 X Y s0 s1 s2)]
  unfold kernelRun0_C
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

/-- The last grid step, the output block: the combination of the three accumulators as this step leaves them. -/
theorem out_last (hc0 : ¬cond0_0 i) (hc1 : cond0_1 i) (X Y : Vec F S4096x128 .f32) (s0 s1 s2 : Vec F S1x1 .f32) :
    out0_C_2 c i a1 h1 a2 h2 a3 h3 a4 h4 a5 h5 a6 h6 hc0 hc1 X Y s0 s1 s2 = combine (stepNeg X Y s0) (stepPos X Y s1) (stepCnt Y s2) := by
  unfold out0_C_2
  rw [View.read_writes_eq_canon _ _ _ (cover0_C_2 c i a1 h1 a2 h2 a3 h3 a4 h4 a5 h5 a6 h6 hc0 hc1 X Y s0 s1 s2)]
  unfold kernelRun0_C
  dsimp only
  sl_unfold_words
  simp only [View.canon_cons_unit_zero (S := S1x1) hz, View.canon_unit_zero (S := S1x1) hz, View.readCov_unit_zero (S := S1x1) _ hz,
    View.readAt_eq_ld, h1.read_unread, h2.read_unread, h4.read_unread, h5.read_unread, h6.read_unread,
    View.ld_unit_zero (S := S4096x128) hz, View.ld_unit_zero (S := S1x1) hz]
  rfl

end Cert.KernelIdeal.Found

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibSublaneSum.lean ====
/-
  The sum of an [a, b] array along its rows (axis 0), read at an index: on the extended reals the reduction
  to [b], at q, is the sum over k of the entries (k, q).  Stated for any extents a and b.
-/
import Idealize.ShloMosaic.Lib.Pipeline.Value
import Idealize.ShloMosaic.Lib.ValueIdx
import Idealize.ShloMosaic.PureOps.Ideal.Laws

namespace SublaneSum

open Idealize.ShloMosaic Idealize.ShloMosaic.ValueIdx

/-- The index of an [a, b] array that lies over q of the reduced [b] with row k put back is (k, q). -/
theorem lift_row {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- On the extended reals the sum of an [a, b] array along its rows is, at q, the sum over k of the entries
    (k, q): the reduction starts from the zero word, the neutral element of the sum. -/
theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_row h q k)

end SublaneSum
-- ==== Proof.LibTileSum.lean ====
/-
  The total of an [a, b] tile computed the way a kernel reduces one trailing axis at a time with the axes kept:
  the lane sum [a, b] → [a], viewed as an [a, 1] column, summed along the rows to [1], viewed as a [1, 1] block.
  On the extended reals the single entry of that block is the double sum over rows k and lanes l of the entries
  (k, l). Stated for any extents a and b.

  Also two re-layouts read at an index, for any extents: a flat vector of length n viewed as an [a, b] array reads,
  at (r, l), the vector at position r · b + l; a [1, 1] block viewed as a scalar reads the block's one entry.
-/
import Idealize.ShloMosaic.Lib.Pipeline.Value
import Idealize.ShloMosaic.Lib.ValueIdx
import Idealize.ShloMosaic.PureOps.Ideal.Laws
import proofs.«126685_j20272245637747_1_alg».proof.Proof.LibKeepdims
import proofs.«126685_j20272245637747_1_alg».proof.Proof.LibSublaneSum

namespace TileSum

open Idealize.ShloMosaic Idealize.ShloMosaic.ValueIdx

/-- Lane sum, column view, row sum, block view: the block's entry is the sum of all entries of the tile. -/
theorem total_keepdims_apply {a b : ℕ} (src : FVec Ideal ⟨2, ![a, b]⟩ .f32)
    (h1 : (⟨2, ![a, b]⟩ : Shape).Reduces [1] (⟨1, ![a]⟩ : Shape))
    (hc1 : (⟨1, ![a]⟩ : Shape).ShapeCasts ⟨2, ![a, 1]⟩)
    (h0 : (⟨2, ![a, 1]⟩ : Shape).Reduces [0] (⟨1, ![1]⟩ : Shape))
    (hc0 : (⟨1, ![1]⟩ : Shape).ShapeCasts ⟨2, ![1, 1]⟩)
    (hφ : FKind.Formats .f32) (hacc : (0x00000000#32 : BitVec 32) = 0x00000000#32) (p z : Fin 1) :
    shapeCast ⟨2, ![1, 1]⟩ (multiReduction (F := Ideal) .add [0] ⟨1, ![1]⟩
        (shapeCast ⟨2, ![a, 1]⟩ (multiReduction (F := Ideal) .add [1] ⟨1, ![a]⟩ src 0x00000000#32 h1 hφ hacc) hc1)
        0x00000000#32 h0 hφ hacc) hc0 (ix2 p z)
      = ∑ k : Fin a, ∑ l : Fin b, src (ix2 k l) := by
  refine (Keepdims.shapeCast_a_a1_apply _ hc0 p z).trans ?_
  refine (SublaneSum.rowSum_apply _ h0 hφ hacc p).trans ?_
  refine Finset.sum_congr rfl fun k _ => ?_
  refine (Keepdims.shapeCast_a_a1_apply _ hc1 k p).trans ?_
  exact Keepdims.laneSum_apply src h1 hφ hacc k

variable {α : Type}

/-- A vector of length n viewed as an [a, b] array reads, at (r, l), the vector at position r · b + l. -/
theorem shapeCast_n_ab_apply {n a b : ℕ} (v : (⟨1, ![n]⟩ : Shape).Idx → α)
    (h : (⟨1, ![n]⟩ : Shape).ShapeCasts ⟨2, ![a, b]⟩) (r : Fin a) (l : Fin b) (e : Fin n)
    (he : e.val = r.val * b + l.val) : shapeCast ⟨2, ![a, b]⟩ v h (ix2 r l) = v (ix1 e) := by
  refine shapeCast_apply v h (ix2 r l) (ix1 e) ?_
  rw [Shape.rowMajor_val_one, Shape.rowMajor_val_two]
  exact he

/-- A [1, 1] block viewed as a scalar reads the block's one entry. -/
theorem shapeCast_11_scalar_apply (v : (⟨2, ![1, 1]⟩ : Shape).Idx → α)
    (h : (⟨2, ![1, 1]⟩ : Shape).ShapeCasts ⟨0, ![]⟩) (j : (⟨0, ![]⟩ : Shape).Idx) :
    shapeCast ⟨0, ![]⟩ v h j = v (ix2 (0 : Fin 1) (0 : Fin 1)) := by
  refine shapeCast_apply v h j (ix2 (0 : Fin 1) (0 : Fin 1)) ?_
  rw [Shape.rowMajor_val_two]
  show 0 * 1 + 0 = (Shape.rowMajorPi _ j).val
  rw [Shape.rowMajorPi_zero]

end TileSum
-- ==== Proof.Spec.lean ====
/-
  The pair loss as one function of the two flat input arrays, on the extended reals.

  For predictions P and labels Q of N entries each:
      loss P Q = ( (∑ₑ [Qₑ < ½] · exp Pₑ) · (∑ₑ [Qₑ > ½] · exp (0 − Pₑ)) − #{e | Qₑ < ½} ) · ½ .
  The three ingredients are named per entry so that both programs can be read against the same terms.
-/
import Idealize.ShloMosaic.PureOps.Ideal
import Mathlib

noncomputable section

namespace PairLoss

open Idealize.ShloMosaic

/-- The threshold ½ as the float word 0x3F000000 denotes it. -/
def half : Ideal .f32 := Scalar.ofBits (F := Ideal) .f32 0x3F000000#32
/-- The float word of +0.0. -/
def zero : Ideal .f32 := Scalar.ofBits (F := Ideal) .f32 0x00000000#32

/-- The bit "the label is below ½". -/
def isNeg (q : Ideal .f32) : BitVec 1 := FloatOps.cmpf (F := Ideal) .olt q half
/-- The bit "the label is above ½". -/
def isPos (q : Ideal .f32) : BitVec 1 := FloatOps.cmpf (F := Ideal) .ogt q half

/-- exp(p) where the label is below ½, else 0. -/
def eNeg (p q : Ideal .f32) : Ideal .f32 := Scalar.select (isNeg q) (FloatOps.exp (F := Ideal) p) zero
/-- exp(0 − p) where the label is above ½, else 0. -/
def ePos (p q : Ideal .f32) : Ideal .f32 :=
  Scalar.select (isPos q) (FloatOps.exp (F := Ideal) (FloatOps.subf (F := Ideal) zero p)) zero
/-- 1 where the label is below ½, else 0: the bit widened to a 32-bit word and read as a signed integer. -/
def cNeg (q : Ideal .f32) : Ideal .f32 := FloatOps.sitofp (F := Ideal) .f32 ((isNeg q).setWidth 32)

/-- The loss of N predictions P and labels Q. -/
def loss {N : ℕ} (P Q : Fin N → Ideal .f32) : Ideal .f32 :=
  FloatOps.mulf (F := Ideal)
    (FloatOps.subf (F := Ideal)
      (FloatOps.mulf (F := Ideal) (∑ e : Fin N, (eNeg (P e) (Q e) : EReal)) (∑ e : Fin N, (ePos (P e) (Q e) : EReal)))
      (∑ e : Fin N, (cNeg (Q e) : EReal)))
    half

end PairLoss

end
-- ==== Proof.Partials.lean ====
/-
  One grid step's update of each accumulator, read on the extended reals.

  At the single entry of a [1,1] accumulator, a step adds to the previous contents the tile's double sum, over the
  4096 rows k and the 128 lanes l, of the per-entry term: exp(pred) where the label is below ½, exp(0 − pred) where it
  is above ½, and the 0/1 indicator of "below ½". The zero blocks the first step starts from hold 0, and the output
  block is (a · b − n) · ½ of the accumulators' entries.
-/
import proofs.«126685_j20272245637747_1_alg».proof.Proof.Found
import proofs.«126685_j20272245637747_1_alg».proof.Proof.LibTileSum
import proofs.«126685_j20272245637747_1_alg».proof.Proof.Spec

noncomputable section

open Idealize.ShloMosaic Idealize.ShloMosaic.TcCoe Idealize.ShloMosaic.ValueIdx PairLoss

namespace Cert.KernelIdeal.Found

open Cert.KernelIdeal Cert.KernelIdeal.Gen

/-- The one index of a [1,1] block. -/
abbrev o11 : S1x1.Idx := ix2 (0 : Fin 1) (0 : Fin 1)

theorem pay1_eq {F : FTy → Type} [FloatOps F] (v : FVec F S1x1 .f32) : k0_pay1 v = v := shapeCast_self _ _
theorem pay8_eq {F : FTy → Type} [FloatOps F] (X : Vec F S4096x128 .f32) : k0_pay8 X = X := shapeCast_self _ _
theorem pay9_eq {F : FTy → Type} [FloatOps F] (Y : Vec F S4096x128 .f32) : k0_pay9 Y = Y := shapeCast_self _ _

/-- The first accumulator's update: previous entry plus the tile's sum of exp(pred) over labels below ½. -/
theorem stepNeg_apply (X Y : Vec Ideal S4096x128 .f32) (s : Vec Ideal S1x1 .f32) :
    stepNeg (F := Ideal) X Y s o11
      = s o11 + ∑ k : Fin 4096, ∑ l : Fin 128, (eNeg (X (ix2 k l)) (Y (ix2 k l)) : EReal) := by
  unfold stepNeg
  rw [pay1_eq]
  unfold k0_pay13 k0_pay10
  rw [pay8_eq, pay9_eq]
  dsimp only
  show s o11 + _ = _
  refine congrArg (s o11 + ·) ?_
  refine (TileSum.total_keepdims_apply _ _ _ _ _ _ _ 0 0).trans ?_
  rfl

/-- The second accumulator's update: previous entry plus the tile's sum of exp(0 − pred) over labels above ½. -/
theorem stepPos_apply (X Y : Vec Ideal S4096x128 .f32) (s : Vec Ideal S1x1 .f32) :
    stepPos (F := Ideal) X Y s o11
      = s o11 + ∑ k : Fin 4096, ∑ l : Fin 128, (ePos (X (ix2 k l)) (Y (ix2 k l)) : EReal) := by
  unfold stepPos k0_pay2
  refine (congrFun (shapeCast_self _ _) o11).trans ?_
  unfold k0_pay11
  rw [pay8_eq, pay9_eq]
  dsimp only
  show s o11 + _ = _
  refine congrArg (s o11 + ·) ?_
  refine (TileSum.total_keepdims_apply _ _ _ _ _ _ _ 0 0).trans ?_
  rfl

/-- The third accumulator's update: previous entry plus the number of the tile's labels below ½. -/
theorem stepCnt_apply (Y : Vec Ideal S4096x128 .f32) (s : Vec Ideal S1x1 .f32) :
    stepCnt (F := Ideal) Y s o11
      = s o11 + ∑ k : Fin 4096, ∑ l : Fin 128, (cNeg (Y (ix2 k l)) : EReal) := by
  unfold stepCnt k0_pay3
  refine (congrFun (shapeCast_self _ _) o11).trans ?_
  unfold k0_pay12 k0_pay10
  rw [pay9_eq]
  dsimp only
  show s o11 + _ = _
  refine congrArg (s o11 + ·) ?_
  refine (TileSum.total_keepdims_apply _ _ _ _ _ _ _ 0 0).trans ?_
  rfl

/-- The zero blocks hold 0. -/
theorem pay5_apply : k0_pay5 (F := Ideal) o11 = 0 := by
  unfold k0_pay5
  refine (congrFun (shapeCast_self _ _) o11).trans ?_
  exact Ideal.ofBits_zero_f32
theorem pay6_apply : k0_pay6 (F := Ideal) o11 = 0 := by
  unfold k0_pay6
  refine (congrFun (shapeCast_self _ _) o11).trans ?_
  exact Ideal.ofBits_zero_f32
theorem pay7_apply : k0_pay7 (F := Ideal) o11 = 0 := by
  unfold k0_pay7
  refine (congrFun (shapeCast_self _ _) o11).trans ?_
  exact Ideal.ofBits_zero_f32

/-- The output block's entry: (a · b − n) · ½ of the accumulators' entries. -/
theorem combine_apply (a b n : Vec Ideal S1x1 .f32) :
    combine (F := Ideal) a b n o11
      = FloatOps.mulf (F := Ideal) (FloatOps.subf (F := Ideal) (FloatOps.mulf (F := Ideal) (a o11) (b o11)) (n o11)) half := rfl

end Cert.KernelIdeal.Found

end
-- ==== Proof.Chain.lean ====
/-
  The three accumulators after every grid step, in closed form.

  The running contents of the carried accumulators are defined by recursion on the grid step: the first step starts
  from the zero blocks, every later step from what the step before left. What the frame's run records for the
  accumulators after step n is this recursion (by induction on n, one case per kind of step: first, middle, last),
  and what it records for the output block at the last step is the combination (a · b − n) · ½ of the three
  accumulators after that step.
-/
import proofs.«126685_j20272245637747_1_alg».proof.Proof.Found

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]
variable (m : (ℓ : Loc nD τ sig) → Buf (Elt F) ℓ)

/-- The prediction tile of grid step t. -/
abbrev tileP (c : Dev nD) (t : Fin cfg0.N) : Vec F S4096x128 .f32 := iblk m c 0 t
/-- The label tile of grid step t. -/
abbrev tileG (c : Dev nD) (t : Fin cfg0.N) : Vec F S4096x128 .f32 := iblk m c 1 t

/-- The three accumulators after grid step n: from the zero blocks at step 0, each step adding its tile's partial sums. -/
def acc (c : Dev nD) : (n : ℕ) → n < cfg0.N → Vec F S1x1 .f32 × Vec F S1x1 .f32 × Vec F S1x1 .f32
  | 0, h => (stepNeg (tileP m c ⟨0, h⟩) (tileG m c ⟨0, h⟩) k0_pay5, stepPos (tileP m c ⟨0, h⟩) (tileG m c ⟨0, h⟩) k0_pay6,
      stepCnt (tileG m c ⟨0, h⟩) k0_pay7)
  | n + 1, h => (stepNeg (tileP m c ⟨n + 1, h⟩) (tileG m c ⟨n + 1, h⟩) (acc c n (Nat.lt_of_succ_lt h)).1,
      stepPos (tileP m c ⟨n + 1, h⟩) (tileG m c ⟨n + 1, h⟩) (acc c n (Nat.lt_of_succ_lt h)).2.1,
      stepCnt (tileG m c ⟨n + 1, h⟩) (acc c n (Nat.lt_of_succ_lt h)).2.2)

/-- What the run records for the accumulators after step n is the recursion. -/
theorem recorded_acc (c : Dev nD) : ∀ (n : ℕ) (h : n < cfg0.N),
    (outsAt0 m c n h).2.1 = (acc m c n h).1 ∧ (outsAt0 m c n h).2.2.1 = (acc m c n h).2.1
      ∧ (outsAt0 m c n h).2.2.2 = (acc m c n h).2.2
  | 0, h => by
    have h1 : ¬(⟨0, h⟩ : Fin cfg0.N).val % 64 = 63 := by dsimp only; omega
    have e := outsAt0_A m c ⟨0, h⟩ rfl h1
    refine ⟨?_, ?_, ?_⟩
    · rw [e]; dsimp only
      exact first_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) _ _ (iblk m c 0 ⟨0, h⟩) (iblk m c 1 ⟨0, h⟩)
    · rw [e]; dsimp only
      exact first_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) _ _ (iblk m c 0 ⟨0, h⟩) (iblk m c 1 ⟨0, h⟩)
    · rw [e]; dsimp only
      exact first_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) _ _ (iblk m c 0 ⟨0, h⟩) (iblk m c 1 ⟨0, h⟩)
  | n + 1, h => by
    have hN : cfg0.N = 64 := N_0
    have ih := recorded_acc c n (Nat.lt_of_succ_lt h)
    have h0 : ¬(⟨n + 1, h⟩ : Fin cfg0.N).val % 64 = 0 := by dsimp only; omega
    by_cases h1 : (⟨n + 1, h⟩ : Fin cfg0.N).val % 64 = 63
    · have e := outsAt0_C m c ⟨n + 1, h⟩ h0 h1
      refine ⟨?_, ?_, ?_⟩
      · rw [e]; dsimp only
        refine (last_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _).trans ?_
        show stepNeg _ _ (outsAt0 m c n _).2.1 = stepNeg _ _ (acc m c n _).1
        rw [ih.1]
      · rw [e]; dsimp only
        refine (last_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _).trans ?_
        show stepPos _ _ (outsAt0 m c n _).2.2.1 = stepPos _ _ (acc m c n _).2.1
        rw [ih.2.1]
      · rw [e]; dsimp only
        refine (last_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _).trans ?_
        show stepCnt _ (outsAt0 m c n _).2.2.2 = stepCnt _ (acc m c n _).2.2
        rw [ih.2.2]
    · have e := outsAt0_B m c ⟨n + 1, h⟩ h0 h1
      refine ⟨?_, ?_, ?_⟩
      · rw [e]; dsimp only
        refine (mid_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _).trans ?_
        show stepNeg _ _ (outsAt0 m c n _).2.1 = stepNeg _ _ (acc m c n _).1
        rw [ih.1]
      · rw [e]; dsimp only
        refine (mid_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _).trans ?_
        show stepPos _ _ (outsAt0 m c n _).2.2.1 = stepPos _ _ (acc m c n _).2.1
        rw [ih.2.1]
      · rw [e]; dsimp only
        refine (mid_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _).trans ?_
        show stepCnt _ (outsAt0 m c n _).2.2.2 = stepCnt _ (acc m c n _).2.2
        rw [ih.2.2]

/-- What the run records for the output block at the last grid step is the combination of the three accumulators
    after that step. -/
theorem recorded_out (c : Dev nD) (t : Fin cfg0.N) (h1 : t.val % 64 = 63) :
    (outsAt0 m c t.val t.isLt).1
      = combine (acc m c t.val t.isLt).1 (acc m c t.val t.isLt).2.1 (acc m c t.val t.isLt).2.2 := by
  obtain ⟨n, h⟩ := t
  cases n with
  | zero => exact absurd h1 (by dsimp only; omega)
  | succ n =>
    have h0 : ¬(⟨n + 1, h⟩ : Fin cfg0.N).val % 64 = 0 := by dsimp only at h1 ⊢; omega
    have ih := recorded_acc m c n (Nat.lt_of_succ_lt h)
    rw [outsAt0_C m c ⟨n + 1, h⟩ h0 h1]; dsimp only
    refine (out_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _).trans ?_
    show combine (stepNeg _ _ (outsAt0 m c n _).2.1) (stepPos _ _ (outsAt0 m c n _).2.2.1) (stepCnt _ (outsAt0 m c n _).2.2.2)
      = combine (stepNeg _ _ (acc m c n _).1) (stepPos _ _ (acc m c n _).2.1) (stepCnt _ (acc m c n _).2.2)
    rw [ih.1, ih.2.1, ih.2.2]

end Cert.KernelIdeal.Found

end
-- ==== Proof.Tiles.lean ====
/-
  A tile's entry in the flat input array.

  The host views each flat input of N = 262144 · 128 entries as a [262144, 128] array before the kernel runs, and grid
  step t stages rows 4096 · t … 4096 · t + 4095 of it. So entry (k, l) of step t's tile is row 4096 · t + k, lane l of
  that array, which is the flat array's entry 128 · (4096 · t + k) + l.
-/
import proofs.«126685_j20272245637747_1_alg».proof.Proof.Chain
import proofs.«126685_j20272245637747_1_alg».proof.Proof.LibTileSum
import Idealize.ShloMosaic.Lib.StableHlo.Run

noncomputable section

open Idealize.ShloMosaic Idealize.ShloMosaic.TcCoe Idealize.SL.Sem Idealize.ShloMosaic.ValueIdx

namespace Cert.KernelIdeal.Found

open Cert.KernelIdeal Cert.KernelIdeal.Gen

variable {F : FTy → Type} [FloatOps F]
variable (m : (ℓ : Loc nD τ sig) → Buf (Elt F) ℓ)

/-- Both input windows' block index at step t is (t, 0). -/
theorem idx_facts : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- The first input as the region finds it: the flat predictions viewed as [262144, 128]. -/
theorem V_v0 (c : Dev nD) : (V m c main_v0 : S262144x128.Idx → Elt F .f32)
    = shapeCast S262144x128 (m ((c : Thread nD τ).loc main_arg0)) shapeCasts_S33554432_S262144x128 := by
  show StableHlo.after hostOps0 (fun b => m (c, b)) (Proc.devRef .tc main_v0) = _
  after_results
  rfl

/-- The second input as the region finds it: the flat labels viewed as [262144, 128]. -/
theorem V_v1 (c : Dev nD) : (V m c main_v1 : S262144x128.Idx → Elt F .f32)
    = shapeCast S262144x128 (m ((c : Thread nD τ).loc main_arg1)) shapeCasts_S33554432_S262144x128 := by
  show StableHlo.after hostOps0 (fun b => m (c, b)) (Proc.devRef .tc main_v1) = _
  after_results
  rfl

/-- Entry (k, l) of step t's prediction tile is the flat predictions' entry 128 · (4096 · t + k) + l. -/
theorem tileP_apply (c : Dev nD) (t : Fin cfg0.N) (k : Fin 4096) (l : Fin 128) (e : Fin 33554432)
    (he : e.val = 128 * (4096 * t.val + k.val) + l.val) :
    tileP m c t (ix2 k l) = m ((c : Thread nD τ).loc main_arg0) (ix1 e) := by
  have hN : cfg0.N = 64 := N_0
  have hr : 4096 * t.val + k.val < 262144 := by have := t.isLt; have := k.isLt; omega
  unfold tileP iblk
  rw [View.read_apply]
  show V m c main_v0 _ = _
  rw [V_v0]
  have hi : ((cfg0.win 0).blk t).view.emb (ix2 k l) = (ix2 (⟨4096 * t.val + k.val, hr⟩ : Fin 262144) l : S262144x128.Idx) := by
    funext a
    apply Fin.ext
    match a with
    | ⟨0, _⟩ =>
      show win0_0.index t 0 * 4096 + 1 * k.val = 4096 * t.val + k.val
      rw [(idx_facts t).1.1]; omega
    | ⟨1, _⟩ =>
      show win0_0.index t 1 * 128 + 1 * l.val = l.val
      rw [(idx_facts t).1.2]; omega
  rw [hi]
  exact TileSum.shapeCast_n_ab_apply _ _ (⟨4096 * t.val + k.val, hr⟩ : Fin 262144) l e (by show e.val = (4096 * t.val + k.val) * 128 + l.val; omega)

/-- Entry (k, l) of step t's label tile is the flat labels' entry 128 · (4096 · t + k) + l. -/
theorem tileG_apply (c : Dev nD) (t : Fin cfg0.N) (k : Fin 4096) (l : Fin 128) (e : Fin 33554432)
    (he : e.val = 128 * (4096 * t.val + k.val) + l.val) :
    tileG m c t (ix2 k l) = m ((c : Thread nD τ).loc main_arg1) (ix1 e) := by
  have hN : cfg0.N = 64 := N_0
  have hr : 4096 * t.val + k.val < 262144 := by have := t.isLt; have := k.isLt; omega
  unfold tileG iblk
  rw [View.read_apply]
  show V m c main_v1 _ = _
  rw [V_v1]
  have hi : ((cfg0.win 1).blk t).view.emb (ix2 k l) = (ix2 (⟨4096 * t.val + k.val, hr⟩ : Fin 262144) l : S262144x128.Idx) := by
    funext a
    apply Fin.ext
    match a with
    | ⟨0, _⟩ =>
      show win0_1.index t 0 * 4096 + 1 * k.val = 4096 * t.val + k.val
      rw [(idx_facts t).2.1]; omega
    | ⟨1, _⟩ =>
      show win0_1.index t 1 * 128 + 1 * l.val = l.val
      rw [(idx_facts t).2.2]; omega
  rw [hi]
  exact TileSum.shapeCast_n_ab_apply _ _ (⟨4096 * t.val + k.val, hr⟩ : Fin 262144) l e (by show e.val = (4096 * t.val + k.val) * 128 + l.val; omega)

end Cert.KernelIdeal.Found

end
-- ==== Proof.KernelValue.lean ====
/-
  The kernel's result, read off its run.

  The output window is a single [1,1] block whose index never moves; it is written back once, after the last grid
  step, and its block is the whole result array. So the array ends holding what the last step stored: the
  combination (a · b − n) · ½ of the three accumulators after the last step. The one host operation after the
  region views that [1,1] array as a scalar, which is the program's result; the two arguments end as launched.
-/
import proofs.«126685_j20272245637747_1_alg».proof.Proof.Chain
import Idealize.ShloMosaic.Lib.StableHlo.Run

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]
variable (m : (ℓ : Loc nD τ sig) → Buf (Elt F) ℓ) (ρ : Dev nD → PrngReg)

theorem lastPt_lt : 63 < cfg0.N := by rw [show cfg0.N = 64 from N_0]; decide

/-- The last grid step. -/
abbrev lastPt : Fin cfg0.N := ⟨63, lastPt_lt⟩

/-- What the last grid step stores into the output block. -/
def outBlock (c : Dev nD) : Buf (Elt F) ((c : Thread nD τ).loc main_v2) :=
  combine (acc m c 63 lastPt_lt).1 (acc m c 63 lastPt_lt).2.1 (acc m c 63 lastPt_lt).2.2

/-- The one write-back, at the last step, writes that block: block (0, 0) of the [1,1] array is the array. -/
theorem flushed_eq (c : Dev nD) (t : Fin cfg0.N) (hf : (cfg0.win 2).flush t = true) :
    (dats m 0 c).flushed 2 t = ((cfg0.win 2).blk t).view.read (Elt F) (outBlock m c) := by
  have hN : cfg0.N = 64 := N_0
  have h3 : t.val = 63 := by have := (flush0_2 t).mp hf; have := t.isLt; omega
  obtain rfl : t = lastPt := Fin.ext h3
  show (cfg0.win 2).cut (grid0.coords lastPt) ((dats m 0 c).after 2 lastPt) = _
  rw [after0_2, recorded_out m c lastPt rfl]
  have hz' : (fun a => win0_2.index lastPt a * main_v2.ty.shape.size a) = fun _ => 0 :=
    funext fun a => by fin_cases a <;> decide +kernel
  exact (Memref.read_access_unit_zero (Elt F) main_v2 hz' (fun a => by rw [congrFun hz' a]; simp) (outBlock m c)).symm

/-- So the result array ends holding what the last step stored. -/
theorem final_out (c : Dev nD) : (dats m 0 c).arrAt 2 cfg0.N = outBlock m c :=
  (dats m 0 c).arrAt_eq_of_cover 2 (outBlock m c) (flushed_eq m c) fun i =>
    ⟨lastPt, (flush0_2 lastPt).mpr rfl, by
      show i ∈ ((View.whole main_v2).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [show win0_2.index lastPt 0 * win0_2.size 0 = 0 from by decide +kernel,
          show win0_2.xsize (grid0.coords lastPt) 0 = 1 from by decide +kernel]; omega
      | ⟨1, _⟩ =>
        show win0_2.index lastPt 1 * win0_2.size 1 ≤ (i 1 : Nat)
          ∧ (i 1 : Nat) < win0_2.index lastPt 1 * win0_2.size 1 + win0_2.xsize (grid0.coords lastPt) 1
        rw [show win0_2.index lastPt 1 * win0_2.size 1 = 0 from by decide +kernel,
          show win0_2.xsize (grid0.coords lastPt) 1 = 1 from by decide +kernel]; omega⟩

/-- The host operation after the region views the [1,1] result array as a scalar. -/
theorem tail_eq (c : Dev nD) :
    Pipeline.afterTail₀ cfgs (dats m) 0 (V0 m) [hostOps1] c main_v3 = shapeCast S_ (outBlock m c) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = outBlock m c := (Pipeline.withArrays_arr spec0 launch0.win.arr_inj c _ _ 2).trans (final_out m c)
  rw [e]
  rfl

/-- The run, read: the program's result at the scalar view of what the last step stored; the arguments unchanged. -/
theorem run : θ_run defs (onTc (τ := τ) (main (F := F))) ⟨m, fun _ => 0, ρ⟩ fun r => ∀ c : Dev nD,
      r.2.mem ((c.tc : Thread nD τ).loc main_v3) = shapeCast S_ (outBlock m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Found

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«126685_j20272245637747_1_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.LibSumTiles.lean ====
/-
  Finite sums, free of any program.

  * A sum over N = T · R · L consecutive positions, taken tile by tile: position e is L · (R · t + r) + l for exactly
    one tile t, one row r of the tile and one lane l of the row. Only commutativity and associativity of the
    addition are used, so this holds on the extended reals with no finiteness assumption.
  * The coercion of a finite real sum to the extended reals is the sum of the coercions.
  * A sum of 0/1 indicators, each a one-bit word widened to 32 bits and read as a signed integer, is the number of
    ones; and a 32-bit word holding a count below 2³¹ reads, signed, as that count.
-/
import Mathlib
import proofs.«126685_j20272245637747_1_alg».proof.Proof.LibSumBlocks
import proofs.«126685_j20272245637747_1_alg».proof.Proof.LibBlockSum

namespace SumTiles

open Finset

/-- Position (t, r, l) of a T × R × L arrangement lies below N = T · R · L. -/
theorem pos3_lt {T R L N : ℕ} (hN : T * R * L = N) (t : Fin T) (r : Fin R) (l : Fin L) :
    L * (R * t.val + r.val) + l.val < N := by
  have h1 : R * t.val + r.val < T * R := BlockSum.pos_lt t r
  have h2 := BlockSum.pos_lt (n := T * R) (b := L) ⟨_, h1⟩ l
  rw [← hN]; exact h2

/-- The total over Fin N, N = T · R · L, tile by tile, row by row, lane by lane. -/
theorem sum_blocks3 {M : Type*} [AddCommMonoid M] (T R L N : ℕ) (hN : T * R * L = N) (F : Fin N → M) :
    ∑ e : Fin N, F e
      = ∑ t : Fin T, ∑ r : Fin R, ∑ l : Fin L, F ⟨L * (R * t.val + r.val) + l.val, pos3_lt hN t r l⟩ := by
  refine (BlockSum.sum_eq_sum_blocks (T * R) L N hN F).trans ?_
  exact BlockSum.sum_eq_sum_blocks T R (T * R) rfl
    (fun s => ∑ l : Fin L, F ⟨L * s.val + l.val, hN ▸ BlockSum.pos_lt s l⟩)

/-- The coercion of a finite sum of reals is the sum of the coercions. -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A one-bit word widened to 32 bits reads, signed, as 1 when the bit is set and as 0 otherwise. -/
theorem toInt_setWidth_bit_ite : ∀ b : BitVec 1, (b.setWidth 32).toInt = if b = 1#1 then 1 else 0 := by decide

/-- A sum of widened 0/1 indicators, as extended reals, is the number of ones. -/
theorem sum_bits_eq_card {ι : Type*} [Fintype ι] (p : ι → BitVec 1) :
    ∑ k, ((((p k).setWidth 32).toInt : ℝ) : EReal) = (((univ.filter fun k => p k = 1#1).card : ℝ) : EReal) := by
  have h : ∀ k, ((((p k).setWidth 32).toInt : ℝ) : EReal) = (((if p k = 1#1 then (1 : ℝ) else 0) : ℝ) : EReal) := by
    intro k
    rw [toInt_setWidth_bit_ite]
    split_ifs <;> simp
  rw [Finset.sum_congr rfl fun k _ => h k, ← coe_sum, Finset.sum_boole]

/-- A 32-bit word holding a number below 2³¹ reads, signed, as that number. -/
theorem toInt_ofNat_of_lt (n : ℕ) (h : n < 2 ^ 31) : (BitVec.ofNat 32 n).toInt = (n : ℤ) := by
  rw [BitVec.toInt_eq_toNat_of_lt]
  · simp only [BitVec.toNat_ofNat]
    have : n % 2 ^ 32 = n := Nat.mod_eq_of_lt (by omega)
    rw [this]
  · simp only [BitVec.toNat_ofNat]
    have : n % 2 ^ 32 = n := Nat.mod_eq_of_lt (by omega)
    omega

end SumTiles
-- ==== Proof.Bridge.lean ====
/-
  The kernel's result is the loss of its two arguments.

  On the extended reals each accumulator's entry after grid step n is the sum, over the steps 0 … n, of the step's
  tile sum (induction on n: the first step starts from 0, every later step adds its tile's sum to what the step
  before left). After the last of the 64 steps that is the sum over all tiles t, rows k and lanes l of the
  per-entry term at flat position 128 · (4096 · t + k) + l, and every position below N = 64 · 4096 · 128 is reached
  exactly once: the sum over all N entries. Only commutativity and associativity of the addition are used, so
  no finiteness of the inputs is needed. The output block then combines the three sums as the loss does.
-/
import proofs.«126685_j20272245637747_1_alg».proof.Proof.Partials
import proofs.«126685_j20272245637747_1_alg».proof.Proof.Tiles
import proofs.«126685_j20272245637747_1_alg».proof.Proof.KernelValue
import proofs.«126685_j20272245637747_1_alg».proof.Proof.LibSumTiles

noncomputable section

open Idealize.ShloMosaic Idealize.ShloMosaic.TcCoe Idealize.SL.Sem Idealize.ShloMosaic.ValueIdx PairLoss SumTiles

namespace Cert.KernelIdeal.Found

open Cert.KernelIdeal Cert.KernelIdeal.Gen

variable (m : (ℓ : Loc nD τ sig) → Buf (Elt Ideal) ℓ)

/-- The number of entries. -/
abbrev NN : ℕ := 33554432

/-- The flat predictions. -/
def flatP (c : Dev nD) : Fin NN → Ideal .f32 := fun e => m ((c.tc : Thread nD τ).loc main_arg0) (ix1 e)
/-- The flat labels. -/
def flatG (c : Dev nD) : Fin NN → Ideal .f32 := fun e => m ((c.tc : Thread nD τ).loc main_arg1) (ix1 e)

/-- The sum over grid step t's tile of a per-entry term g (prediction, label); 0 past the grid. -/
def tileSum (g : Ideal .f32 → Ideal .f32 → EReal) (c : Dev nD) (t : ℕ) : EReal :=
  if h : t < cfg0.N then ∑ k : Fin 4096, ∑ l : Fin 128, g (tileP m c ⟨t, h⟩ (ix2 k l)) (tileG m c ⟨t, h⟩ (ix2 k l)) else 0

/-- The three accumulators' entries after step n: the tile sums of the steps 0 … n. -/
theorem acc_apply (c : Dev nD) (n : ℕ) : ∀ (h : n < cfg0.N),
    (acc m c n h).1 o11 = ∑ t ∈ Finset.range (n + 1), tileSum m (fun p q => eNeg p q) c t
      ∧ (acc m c n h).2.1 o11 = ∑ t ∈ Finset.range (n + 1), tileSum m (fun p q => ePos p q) c t
      ∧ (acc m c n h).2.2 o11 = ∑ t ∈ Finset.range (n + 1), tileSum m (fun _ q => cNeg q) c t := by
  induction n with
  | zero =>
    intro h
    refine ⟨?_, ?_, ?_⟩
    · refine (stepNeg_apply (tileP m c ⟨0, h⟩) (tileG m c ⟨0, h⟩) (k0_pay5 (F := Ideal))).trans ?_
      rw [pay5_apply, zero_add, Finset.sum_range_one]; unfold tileSum; rw [dif_pos h]
    · refine (stepPos_apply (tileP m c ⟨0, h⟩) (tileG m c ⟨0, h⟩) (k0_pay6 (F := Ideal))).trans ?_
      rw [pay6_apply, zero_add, Finset.sum_range_one]; unfold tileSum; rw [dif_pos h]
    · refine (stepCnt_apply (tileG m c ⟨0, h⟩) (k0_pay7 (F := Ideal))).trans ?_
      rw [pay7_apply, zero_add, Finset.sum_range_one]; unfold tileSum; rw [dif_pos h]
  | succ n ih =>
    intro h
    have ih := ih (Nat.lt_of_succ_lt h)
    refine ⟨?_, ?_, ?_⟩
    · refine (stepNeg_apply (tileP m c ⟨n + 1, h⟩) (tileG m c ⟨n + 1, h⟩) (acc m c n (Nat.lt_of_succ_lt h)).1).trans ?_
      rw [ih.1, Finset.sum_range_succ _ (n + 1)]
      refine congrArg (_ + ·) ?_
      unfold tileSum; rw [dif_pos h]
    · refine (stepPos_apply (tileP m c ⟨n + 1, h⟩) (tileG m c ⟨n + 1, h⟩) (acc m c n (Nat.lt_of_succ_lt h)).2.1).trans ?_
      rw [ih.2.1, Finset.sum_range_succ _ (n + 1)]
      refine congrArg (_ + ·) ?_
      unfold tileSum; rw [dif_pos h]
    · refine (stepCnt_apply (tileG m c ⟨n + 1, h⟩) (acc m c n (Nat.lt_of_succ_lt h)).2.2).trans ?_
      rw [ih.2.2, Finset.sum_range_succ _ (n + 1)]
      refine congrArg (_ + ·) ?_
      unfold tileSum; rw [dif_pos h]

/-- The tile sums of all 64 steps add up to the sum over all N entries. -/
theorem sum_tiles (g : Ideal .f32 → Ideal .f32 → EReal) (c : Dev nD) :
    ∑ t ∈ Finset.range (63 + 1), tileSum m g c t = ∑ e : Fin NN, g (flatP m c e) (flatG m c e) := by
  have hN : cfg0.N = 64 := N_0
  rw [Finset.sum_range, sum_blocks3 64 4096 128 NN (by norm_num) (fun e => g (flatP m c e) (flatG m c e))]
  refine Finset.sum_congr rfl fun t _ => ?_
  have ht : t.val < cfg0.N := by rw [hN]; exact t.isLt
  unfold tileSum
  rw [dif_pos ht]
  refine Finset.sum_congr rfl fun k _ => Finset.sum_congr rfl fun l _ => ?_
  rw [tileP_apply m c ⟨t.val, ht⟩ k l ⟨128 * (4096 * t.val + k.val) + l.val, pos3_lt (by norm_num) t k l⟩ rfl,
    tileG_apply m c ⟨t.val, ht⟩ k l ⟨128 * (4096 * t.val + k.val) + l.val, pos3_lt (by norm_num) t k l⟩ rfl]
  rfl

/-- The output block's entry is the loss of the flat arguments. -/
theorem outBlock_apply (c : Dev nD) : outBlock m c o11 = loss (flatP m c) (flatG m c) := by
  unfold outBlock
  refine (combine_apply _ _ _).trans ?_
  obtain ⟨h1, h2, h3⟩ := acc_apply m c 63 lastPt_lt
  rw [h1, h2, h3, sum_tiles, sum_tiles, sum_tiles]
  rfl

/-- The kernel's scalar result is the loss of the flat arguments. -/
theorem result_eq (c : Dev nD) :
    shapeCast S_ (outBlock m c) shapeCasts_S1x1_S_ = fun _ => loss (flatP m c) (flatG m c) :=
  funext fun j => (TileSum.shapeCast_11_scalar_apply _ _ j).trans (outBlock_apply m c)

end Cert.KernelIdeal.Found

end
-- ==== Proof.LibSumIdx1.lean ====
/-
  A sum over the index set of a vector of extent n is the sum over its one coordinate.
-/
import Idealize.ShloMosaic.Lib.ValueIdx

namespace SumIdx1

open Idealize.ShloMosaic Idealize.ShloMosaic.ValueIdx

/-- A rank-1 index is its coordinate. -/
def idxEquiv1 {n : ℕ} : (⟨1, ![n]⟩ : Shape).Idx ≃ Fin n where
  toFun j := j 0
  invFun a := ix1 a
  left_inv j := (eq_ix1 j).symm
  right_inv _ := rfl

/-- So a sum over the index set is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

end SumIdx1
-- ==== Proof.RefValue.lean ====
/-
  The reference computes the loss of its two arguments.

  Its two float sums start from the zero word and run over all N entries, so on the extended reals each is the
  plain sum of the per-entry terms (the host's negation is 0 − p). Its count is an integer sum of the 0/1
  indicator "label below ½" in 32-bit words, converted to a float afterwards: a sum of at most N = 2²⁵ ones
  cannot wrap around in 32 bits, so the converted word is the number of ones, which is also the sum of the
  indicators converted one by one.
-/
import proofs.«126685_j20272245637747_1_alg».proof.Proof.Gen.ReferenceIdeal.Read
import proofs.«126685_j20272245637747_1_alg».proof.Proof.Spec
import proofs.«126685_j20272245637747_1_alg».proof.Proof.LibSumTiles
import proofs.«126685_j20272245637747_1_alg».proof.Proof.LibSumIdx1
import Idealize.ShloMosaic.Lib.IndicatorCount
import Idealize.ShloMosaic.Lib.KernelVsHost

noncomputable section

open Idealize.ShloMosaic Idealize.ShloMosaic.TcCoe Idealize.ShloMosaic.ValueIdx PairLoss SumTiles

namespace Cert.ReferenceIdeal.RefValue

open Cert.ReferenceIdeal Cert.ReferenceIdeal.Gen Cert.ReferenceIdeal.Read

/-- The number of entries. -/
abbrev NN : ℕ := 33554432

variable (x0 x1 : (⟨S33554432, .f32⟩ : BufTy).Contents (Elt Ideal))

/-- The reference's bit "label below ½" at entry j. -/
theorem v3_apply (j : S33554432.Idx) : val_main_v3 (F := Ideal) x1 j = isNeg (x1 j) := by
  rw [val_main_v3_apply, val_main_v2_apply]; rfl

/-- The reference's bit "label above ½" at entry j. -/
theorem v1_apply (j : S33554432.Idx) : val_main_v1 (F := Ideal) x1 j = isPos (x1 j) := by
  rw [val_main_v1_apply, val_main_v0_apply]; rfl

/-- The first masked term at entry j. -/
theorem v5_apply (j : S33554432.Idx) : val_main_v5 (F := Ideal) x0 x1 j = eNeg (x0 j) (x1 j) := by
  rw [val_main_v5_apply, v3_apply, val_main_call0_v1_apply]; rfl

/-- The second masked term at entry j: the host's negation is 0 − p. -/
theorem v9_apply (j : S33554432.Idx) : val_main_v9 (F := Ideal) x0 x1 j = ePos (x0 j) (x1 j) := by
  rw [val_main_v9_apply, v1_apply, val_main_call1_v1_apply, val_main_v8_apply, val_main_v7_apply,
    ← Ideal.subf_zero_eq_hostNegf]
  rfl

/-- The first float sum. -/
theorem v6_apply (i : S_.Idx) :
    val_main_v6 (F := Ideal) x0 x1 i = ∑ e : Fin NN, (eNeg (x0 (ix1 e)) (x1 (ix1 e)) : EReal) := by
  rw [val_main_v6_apply]
  have hz : val_main_cst_2 (F := Ideal) (Shape.Idx.first h_S_) = (0 : EReal) := Ideal.ofBits_zero_f32
  rw [hz, zero_add, SumIdx1.sum_idx1]
  exact Finset.sum_congr rfl fun e _ => v5_apply x0 x1 (ix1 e)

/-- The second float sum. -/
theorem v10_apply (i : S_.Idx) :
    val_main_v10 (F := Ideal) x0 x1 i = ∑ e : Fin NN, (ePos (x0 (ix1 e)) (x1 (ix1 e)) : EReal) := by
  rw [val_main_v10_apply]
  have hz : val_main_cst_4 (F := Ideal) (Shape.Idx.first h_S_) = (0 : EReal) := Ideal.ofBits_zero_f32
  rw [hz, zero_add, SumIdx1.sum_idx1]
  exact Finset.sum_congr rfl fun e _ => v9_apply x0 x1 (ix1 e)

instance : Subsingleton S_.Idx := ⟨fun a b => funext fun d => d.elim0⟩

/-- There are N entries. -/
theorem card_idx : Fintype.card S33554432.Idx = NN :=
  (Fintype.card_congr (SumIdx1.idxEquiv1 (n := NN))).trans (Fintype.card_fin NN)

/-- The integer count, converted: the sum of the indicators converted one by one. -/
theorem v13_apply (i : S_.Idx) :
    val_main_v13 (F := Ideal) x1 i = ∑ e : Fin NN, (cNeg (x1 (ix1 e)) : EReal) := by
  rw [val_main_v13_apply]
  unfold val_main_v12
  rw [Host.reduce_eq_fold IntOp.addi (val_main_v11 (F := Ideal) x1) (val_main_c (F := Ideal)) reducesTo_S33554432_S_d0 h_S_ i,
    Finset.filter_true_of_mem fun j _ => Subsingleton.elim _ _]
  have hf : val_main_v11 (F := Ideal) x1 = fun j => (isNeg (x1 j)).setWidth 32 :=
    funext fun j => by rw [val_main_v11_apply, v3_apply]
  rw [hf]
  show FloatOps.sitofp (F := Ideal) .f32
      (Finset.univ.fold IntOp.addi (0#32) fun j : S33554432.Idx => (isNeg (x1 j)).setWidth 32) = _
  rw [IndicatorCount.fold_addi_setWidth_eq_card]
  have hcard : (Finset.univ.filter fun j : S33554432.Idx => isNeg (x1 j) = 1#1).card < 2 ^ 31 := by
    have h1 := Finset.card_le_univ (Finset.univ.filter fun j : S33554432.Idx => isNeg (x1 j) = 1#1)
    rw [card_idx] at h1
    exact lt_of_le_of_lt h1 (by norm_num)
  show (((BitVec.ofNat 32 _).toInt : ℝ) : EReal) = _
  rw [toInt_ofNat_of_lt _ hcard, Int.cast_natCast, ← sum_bits_eq_card (fun j : S33554432.Idx => isNeg (x1 j)),
    SumIdx1.sum_idx1]
  rfl

/-- The reference's result is the loss of its arguments. -/
theorem result_eq (i : S_.Idx) :
    val_main_v16 (F := Ideal) x0 x1 i = loss (fun e : Fin NN => x0 (ix1 e)) (fun e : Fin NN => x1 (ix1 e)) := by
  rw [val_main_v16_apply, val_main_v15_apply, val_main_v14_apply, v6_apply, v10_apply, v13_apply]
  rfl

end Cert.ReferenceIdeal.RefValue

end
-- ==== Proof.lean ====
/-
  The pair loss kernel against its reference.

  Both programs take N = 2²⁵ predictions P and labels Q and return, on the extended reals,
      ( (∑ₑ [Qₑ < ½] · exp Pₑ) · (∑ₑ [Qₑ > ½] · exp (0 − Pₑ)) − #{e | Qₑ < ½} ) · ½ .
  The kernel walks 64 tiles of 4096 × 128 entries, keeps three running totals that it resets at the first tile and
  updates with each tile's lane-then-row sums, and combines them after the last tile; the reference sums all N entries
  at once, its count as an integer sum converted afterwards. The two agree because a sum over N = 64 · 4096 · 128
  positions may be taken tile by tile, row by row and lane by lane (commutativity and associativity of the addition
  only, so nothing needs the inputs to be finite), and because at most 2²⁵ ones cannot wrap a 32-bit counter.

  Modules: Spec (the loss as one function), LibSumTiles (the finite-sum facts), Found and Chain (what each grid step
  leaves in the accumulators, and the accumulators after every step), Partials and Tiles (a step's update and a
  tile's entries on the extended reals), KernelValue (the kernel's result read off its run), Bridge (that result is
  the loss), RefValue (the reference's result is the loss). The three frames are the generated ones; the ideal pass
  rewrote nothing, so the kernel's idealization is its own text.
-/
import proofs.«126685_j20272245637747_1_alg».proof.Defs
import proofs.«126685_j20272245637747_1_alg».proof.Proof.Gen.Kernel
import proofs.«126685_j20272245637747_1_alg».proof.Proof.Gen.Kernel.Skeleton
import proofs.«126685_j20272245637747_1_alg».proof.Proof.Gen.Kernel.Launch
import proofs.«126685_j20272245637747_1_alg».proof.Proof.Gen.Kernel.Points
import proofs.«126685_j20272245637747_1_alg».proof.Proof.Gen.Kernel.Frame
import proofs.«126685_j20272245637747_1_alg».proof.Proof.Gen.KernelIdeal
import proofs.«126685_j20272245637747_1_alg».proof.Proof.Gen.KernelIdeal.Skeleton
import proofs.«126685_j20272245637747_1_alg».proof.Proof.Gen.KernelIdeal.Launch
import proofs.«126685_j20272245637747_1_alg».proof.Proof.Gen.KernelIdeal.Points
import proofs.«126685_j20272245637747_1_alg».proof.Proof.Gen.KernelIdeal.Frame
import proofs.«126685_j20272245637747_1_alg».proof.Proof.Gen.ReferenceIdeal
import proofs.«126685_j20272245637747_1_alg».proof.Proof.Gen.Pre_finite_inputs
import proofs.«126685_j20272245637747_1_alg».proof.Proof.Gen.ReferenceIdeal.Run
import proofs.«126685_j20272245637747_1_alg».proof.Proof.Gen.ReferenceIdeal.Read
import proofs.«126685_j20272245637747_1_alg».proof.Proof.Bridge
import proofs.«126685_j20272245637747_1_alg».proof.Proof.RefValue
import Idealize.ShloMosaic.Adequacy
import Idealize.ShloMosaic.Init

noncomputable section

namespace Cert.Proof

open Idealize.ShloMosaic Idealize.SL.Sem

/-- The kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals both programs end with the loss of the arguments they agree on. -/
theorem algebraic : Cert.algebraic_KernelIdeal_ReferenceIdeal := by
  intro m ρ m' ρ' _ hagree
  refine ⟨fun c => fun _ => PairLoss.loss (Cert.KernelIdeal.Found.flatP m c) (Cert.KernelIdeal.Found.flatG m c), ?_, ?_⟩
  · exact (θ_run Cert.KernelIdeal.defs _ _).mono
      (fun _ h c => ⟨(h c).1.trans (Cert.KernelIdeal.Found.result_eq m c), (h c).2⟩)
      (Cert.KernelIdeal.Found.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq]
    funext i
    rw [Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
